-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x32 : Shape := ⟨2, ![4194304, 32]⟩
abbrev S32x32 : Shape := ⟨2, ![32, 32]⟩
abbrev S32x3 : Shape := ⟨2, ![32, 3]⟩
abbrev S32 : Shape := ⟨1, ![32]⟩
abbrev S3 : Shape := ⟨1, ![3]⟩
abbrev S_ : Shape := ⟨0, ![]⟩

class Facts : Prop where
  bcast_S_S4194304x32 : S_.BroadcastsInDim S4194304x32 (![] : Fin 0 → Fin S4194304x32.rank)
  reducesTo_S4194304x32_S_d0_1 : S4194304x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32x3 : S_.BroadcastsInDim S32x3 (![] : Fin 0 → Fin S32x3.rank)
  reducesTo_S32x3_S_d0_1 : S32x3.ReducesTo [0, 1] S_
  bcast_S_S32 : S_.BroadcastsInDim S32 (![] : Fin 0 → Fin S32.rank)
  reducesTo_S32_S_d0 : S32.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S32 .f32) (main_arg5 : FVec F S32 .f32) (main_arg6 : FVec F S3 .f32) (main_v13 : IVec S_ 1) (main_v16 : IVec S32x3 1) : IVec S_ 1 :=
  let main_c_5 : IVec S_ 1 := constantI S_ 1 1#1
  let main_v17 : IVec S_ 1 := (fun x v => Host.reduce IntOp.andi x v reducesTo_S32x3_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S4194304x32 .f32) (main_arg1 : FVec F S32x32 .f32) (main_arg2 : FVec F S32x32 .f32) (main_arg3 : FVec F S32x3 .f32) (main_arg4 : FVec F S32 .f32) (main_arg5 : FVec F S32 .f32) (main_arg6 : FVec F S3 .f32) : IVec S_ 1 :=
  let main_v0 : FVec F S4194304x32 .f32 := Host.absf main_arg0
  let main_cst : FVec F S_ .f32 := constant S_ .f32 0x7F800000#32
  let main_v1 : FVec F S4194304x32 .f32 := broadcastInDim S4194304x32 ![] bcast_S_S4194304x32 main_cst
  let main_v2 : IVec S4194304x32 1 := cmpf .olt main_v0 main_v1
  let main_c : IVec S_ 1 := constantI S_ 1 1#1
  let main_v3 : IVec S_ 1 := (fun x v => Host.reduce IntOp.andi x v reducesTo_S4194304x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x3 .f32 := Host.absf main_arg3
  let main_cst_4 : FVec F S_ .f32 := constant S_ .f32 0x7F800000#32
  let main_v15 : FVec F S32x3 .f32 := broadcastInDim S32x3 ![] bcast_S_S32x3 main_cst_4
  let main_v16 : IVec S32x3 1 := cmpf .olt main_v14 main_v15
  fn_part1 (F := F) main_arg4 main_arg5 main_arg6 main_v13 main_v16
-- ==== Kernel.lean ====
abbrev S4194304x32 : Shape := ⟨2, ![4194304, 32]⟩
abbrev S32x32 : Shape := ⟨2, ![32, 32]⟩
abbrev S32x3 : Shape := ⟨2, ![32, 3]⟩
abbrev S32 : Shape := ⟨1, ![32]⟩
abbrev S3 : Shape := ⟨1, ![3]⟩
abbrev S4x4 : Shape := ⟨2, ![4, 4]⟩
abbrev S_ : Shape := ⟨0, ![]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S1x32x1x3 : Shape := ⟨4, ![1, 32, 1, 3]⟩
abbrev S4x32x4x3 : Shape := ⟨4, ![4, 32, 4, 3]⟩
abbrev S128x12 : Shape := ⟨2, ![128, 12]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x3 : Shape := ⟨2, ![1, 3]⟩
abbrev S4x3 : Shape := ⟨2, ![4, 3]⟩
abbrev S12 : Shape := ⟨1, ![12]⟩
abbrev S1x12 : Shape := ⟨2, ![1, 12]⟩
abbrev S1048576x128 : Shape := ⟨2, ![1048576, 128]⟩
abbrev S1048576x12 : Shape := ⟨2, ![1048576, 12]⟩
abbrev S16384x128 : Shape := ⟨2, ![16384, 128]⟩
abbrev S16384x12 : Shape := ⟨2, ![16384, 12]⟩
abbrev S4194304x3 : Shape := ⟨2, ![4194304, 3]⟩

abbrev nBuf : Space → Nat
  | .hbm => 47
  | .vmem => 10
  | .smem => 0
  | _ => 0

abbrev bufTy : (tb : Table) → Fin (tcTables nBuf tb) → BufTy
  | .hbm, ⟨0, _⟩ => ⟨S4194304x32, .f32⟩
  | .hbm, ⟨1, _⟩ => ⟨S32x32, .f32⟩
  | .hbm, ⟨2, _⟩ => ⟨S32x32, .f32⟩
  | .hbm, ⟨3, _⟩ => ⟨S32x3, .f32⟩
  | .hbm, ⟨4, _⟩ => ⟨S32, .f32⟩
  | .hbm, ⟨5, _⟩ => ⟨S32, .f32⟩
  | .hbm, ⟨6, _⟩ => ⟨S3, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S4x1x4x1, .f32⟩
  | .hbm, ⟨15, _⟩ => ⟨S1x32x1x32, .f32⟩
  | .hbm, ⟨16, _⟩ => ⟨S4x32x4x32, .f32⟩
  | .hbm, ⟨17, _⟩ => ⟨S4x32x4x32, .f32⟩
  | .hbm, ⟨18, _⟩ => ⟨S4x32x4x32, .f32⟩
  | .hbm, ⟨19, _⟩ => ⟨S128x128, .f32⟩
  | .hbm, ⟨20, _⟩ => ⟨S4x1x4x1, .f32⟩
  | .hbm, ⟨21, _⟩ => ⟨S1x32x1x32, .f32⟩
  | .hbm, ⟨22, _⟩ => ⟨S4x32x4x32, .f32⟩
  | .hbm, ⟨23, _⟩ => ⟨S4x32x4x32, .f32⟩
  | .hbm, ⟨24, _⟩ => ⟨S4x32x4x32, .f32⟩
  | .hbm, ⟨25, _⟩ => ⟨S128x128, .f32⟩
  | .hbm, ⟨26, _⟩ => ⟨S4x1x4x1, .f32⟩
  | .hbm, ⟨27, _⟩ => ⟨S1x32x1x3, .f32⟩
  | .hbm, ⟨28, _⟩ => ⟨S4x32x4x3, .f32⟩
  | .hbm, ⟨29, _⟩ => ⟨S4x32x4x3, .f32⟩
  | .hbm, ⟨30, _⟩ => ⟨S4x32x4x3, .f32⟩
  | .hbm, ⟨31, _⟩ => ⟨S128x12, .f32⟩
  | .hbm, ⟨32, _⟩ => ⟨S1x32, .f32⟩
  | .hbm, ⟨33, _⟩ => ⟨S4x32, .f32⟩
  | .hbm, ⟨34, _⟩ => ⟨S128, .f32⟩
  | .hbm, ⟨35, _⟩ => ⟨S1x128, .f32⟩
  | .hbm, ⟨36, _⟩ => ⟨S1x32, .f32⟩
  | .hbm, ⟨37, _⟩ => ⟨S4x32, .f32⟩
  | .hbm, ⟨38, _⟩ => ⟨S128, .f32⟩
  | .hbm, ⟨39, _⟩ => ⟨S1x128, .f32⟩
  | .hbm, ⟨40, _⟩ => ⟨S1x3, .f32⟩
  | .hbm, ⟨41, _⟩ => ⟨S4x3, .f32⟩
  | .hbm, ⟨42, _⟩ => ⟨S12, .f32⟩
  | .hbm, ⟨43, _⟩ => ⟨S1x12, .f32⟩
  | .hbm, ⟨44, _⟩ => ⟨S1048576x128, .f32⟩
  | .hbm, ⟨45, _⟩ => ⟨S1048576x12, .f32⟩
  | .hbm, ⟨46, _⟩ => ⟨S4194304x3, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x12, .f32⟩
  | .local _ .vmem, ⟨7, _⟩ => ⟨S1x12, .f32⟩
  | .local _ .vmem, ⟨8, _⟩ => ⟨S16384x12, .f32⟩
  | .local _ .vmem, ⟨9, _⟩ => ⟨S16384x12, .f32⟩
  | _, _ => ⟨S4194304x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v7 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  bcast_S32x3_S1x32x1x3_1_3 : S32x3.BroadcastsInDim S1x32x1x3 (![1, 3] : Fin 2 → Fin S1x32x1x3.rank)
  bcast_S4x1x4x1_S4x32x4x3_0_1_2_3 : S4x1x4x1.BroadcastsInDim S4x32x4x3 (![0, 1, 2, 3] : Fin 4 → Fin S4x32x4x3.rank)
  bcast_S1x32x1x3_S4x32x4x3_0_1_2_3 : S1x32x1x3.BroadcastsInDim S4x32x4x3 (![0, 1, 2, 3] : Fin 4 → Fin S4x32x4x3.rank)
  shapeCasts_S4x32x4x3_S128x12 : S4x32x4x3.ShapeCasts S128x12
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  shapeCasts_S3_S1x3 : S3.ShapeCasts S1x3
  bcast_S1x3_S4x3_0_1 : S1x3.BroadcastsInDim S4x3 (![0, 1] : Fin 2 → Fin S4x3.rank)
  shapeCasts_S4x3_S12 : S4x3.ShapeCasts S12
  shapeCasts_S12_S1x12 : S12.ShapeCasts S1x12
  shapeCasts_S4194304x32_S1048576x128 : S4194304x32.ShapeCasts S1048576x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S128x12_S128x12_0_0 : ∀ a, (![0, 0] : Fin 2 → Nat) a + S128x12.size a ≤ S128x12.size a
  h_S128x12 : 0 < S128x12.numel
  shapeCasts_S128x12_S128x12 : S128x12.ShapeCasts S128x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S16384x12 : S1x12.Broadcasts S16384x12
  inb_S16384x12_S16384x12_0_0 : ∀ a, (![0, 0] : Fin 2 → Nat) a + S16384x12.size a ≤ S16384x12.size a
  h_S16384x12 : 0 < S16384x12.numel
  shapeCasts_S1048576x12_S4194304x3 : S1048576x12.ShapeCasts S4194304x3
  dot_S16384x128_S128x128_S16384x128_1_0_0_1_n_n_wf : DotDims.WF S16384x128 S128x128 S16384x128 [1] [0] [0] [1] [] []
  dot_S16384x128_S128x12_S16384x12_1_0_0_1_n_n_wf : DotDims.WF S16384x128 S128x12 S16384x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x12.size a ≤ S128x12.size a
  hwx0_5 : ∀ i : grid0.Coords, EltTy.bits .f32 = 32 ∨ (Rect.block (s := S128x12) S128x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x12.size a ≤ S1x12.size a
  hwx0_6 : ∀ i : grid0.Coords, EltTy.bits .f32 = 32 ∨ (Rect.block (s := S1x12) S1x12.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16384x12.size a ≤ S1048576x12.size a
  hwx0_7 : ∀ i : grid0.Coords, EltTy.bits .f32 = 32 ∨ (Rect.block (s := S1048576x12) S16384x12.size (cc0_transform_7 i) (hinb0_7 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x12_S16384x12_1_0_0_1_n_n : DotDims S16384x128 S128x12 S16384x12 where
  lhsContracting := [1]
  rhsContracting := [0]
  lhsNonContracting := [0]
  rhsNonContracting := [1]
  lhsBatch := []
  rhsBatch := []
  wf := dot_S16384x128_S128x12_S16384x12_1_0_0_1_n_n_wf

abbrev win0_0 : Pipeline.Window sig grid0 :=
  Pipeline.Window.ofSpec (Memref.whole main_v21) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S16384x12.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4194304x32 : Shape := ⟨2, ![4194304, 32]⟩
abbrev S32x32 : Shape := ⟨2, ![32, 32]⟩
abbrev S32x3 : Shape := ⟨2, ![32, 3]⟩
abbrev S32 : Shape := ⟨1, ![32]⟩
abbrev S3 : Shape := ⟨1, ![3]⟩
abbrev S1x32 : Shape := ⟨2, ![1, 32]⟩
abbrev S_ : Shape := ⟨0, ![]⟩
abbrev S4194304x3 : Shape := ⟨2, ![4194304, 3]⟩
abbrev S1x3 : Shape := ⟨2, ![1, 3]⟩

abbrev nBuf : Space → Nat
  | .hbm => 25
  | .vmem => 0
  | .smem => 0
  | _ => 0

abbrev bufTy : (tb : Table) → Fin (tcTables nBuf tb) → BufTy
  | .hbm, ⟨0, _⟩ => ⟨S4194304x32, .f32⟩
  | .hbm, ⟨1, _⟩ => ⟨S32x32, .f32⟩
  | .hbm, ⟨2, _⟩ => ⟨S32x32, .f32⟩
  | .hbm, ⟨3, _⟩ => ⟨S32x3, .f32⟩
  | .hbm, ⟨4, _⟩ => ⟨S32, .f32⟩
  | .hbm, ⟨5, _⟩ => ⟨S32, .f32⟩
  | .hbm, ⟨6, _⟩ => ⟨S3, .f32⟩
  | .hbm, ⟨7, _⟩ => ⟨S4194304x32, .f32⟩
  | .hbm, ⟨8, _⟩ => ⟨S1x32, .f32⟩
  | .hbm, ⟨9, _⟩ => ⟨S4194304x32, .f32⟩
  | .hbm, ⟨10, _⟩ => ⟨S4194304x32, .f32⟩
  | .hbm, ⟨11, _⟩ => ⟨S_, .f32⟩
  | .hbm, ⟨12, _⟩ => ⟨S4194304x32, .f32⟩
  | .hbm, ⟨13, _⟩ => ⟨S4194304x32, .f32⟩
  | .hbm, ⟨14, _⟩ => ⟨S4194304x32, .f32⟩
  | .hbm, ⟨15, _⟩ => ⟨S1x32, .f32⟩
  | .hbm, ⟨16, _⟩ => ⟨S4194304x32, .f32⟩
  | .hbm, ⟨17, _⟩ => ⟨S4194304x32, .f32⟩
  | .hbm, ⟨18, _⟩ => ⟨S_, .f32⟩
  | .hbm, ⟨19, _⟩ => ⟨S4194304x32, .f32⟩
  | .hbm, ⟨20, _⟩ => ⟨S4194304x32, .f32⟩
  | .hbm, ⟨21, _⟩ => ⟨S4194304x3, .f32⟩
  | .hbm, ⟨22, _⟩ => ⟨S1x3, .f32⟩
  | .hbm, ⟨23, _⟩ => ⟨S4194304x3, .f32⟩
  | .hbm, ⟨24, _⟩ => ⟨S4194304x3, .f32⟩
  | _, _ => ⟨S4194304x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S_S4194304x32 : S_.BroadcastsInDim S4194304x32 (![] : Fin 0 → Fin S4194304x32.rank)
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  dot_S4194304x32_S32x32_S4194304x32_1_0_0_1_n_n_wf : DotDims.WF S4194304x32 S32x32 S4194304x32 [1] [0] [0] [1] [] []
  dot_S4194304x32_S32x3_S4194304x3_1_0_0_1_n_n_wf : DotDims.WF S4194304x32 S32x3 S4194304x3 [1] [0] [0] [1] [] []

variable [Facts₀]

def dot_S4194304x32_S32x32_S4194304x32_1_0_0_1_n_n : DotDims S4194304x32 S32x32 S4194304x32 where
  lhsContracting := [1]
  rhsContracting := [0]
  lhsNonContracting := [0]
  rhsNonContracting := [1]
  lhsBatch := []
  rhsBatch := []
  wf := dot_S4194304x32_S32x32_S4194304x32_1_0_0_1_n_n_wf
def dot_S4194304x32_S32x3_S4194304x3_1_0_0_1_n_n : DotDims S4194304x32 S32x3 S4194304x3 where
  lhsContracting := [1]
  rhsContracting := [0]
  lhsNonContracting := [0]
  rhsNonContracting := [1]
  lhsBatch := []
  rhsBatch := []
  wf := dot_S4194304x32_S32x3_S4194304x3_1_0_0_1_n_n_wf

class Facts : Prop extends Facts₀ where

variable [Facts]
-- ==== Proof.Spec.lean ====
/-
  The mathematics of the claim, with no program in sight.

  A three-layer perceptron on rows of width 32: `h1 = max (x·W0 + b0) 0`, `h2 = max (h1·W1 + b1) 0`,
  `out = h2·W2 + b2`, every sum and product the extended reals' (`mlp`).

  The same map computed four rows at a time (`packedRow`): four consecutive rows of `x` laid side by
  side as one row of width 128, each weight matrix replaced by the block-diagonal matrix carrying four copies
  of it (entry `(32a+k, n·a'+j)` is `δ a a' · W k j`), each bias repeated four times. The off-diagonal blocks
  are exact zeros, and on the extended reals `0 · y = 0` and `y · 0 = 0` for EVERY `y`, so a sum over the
  128 lanes collapses to the 32 lanes of the diagonal block with no finiteness hypothesis
  (`sum_blockdiag`); layer by layer the packed row is the four rows' perceptron values side by side
  (`packedRow_eq`).
-/
import Idealize.ShloMosaic.PureOps.Ideal
import Idealize.ShloMosaic.Lib.ValueIdx

noncomputable section

open scoped BigOperators

namespace Cert.MlpSpec

open Idealize.ShloMosaic Idealize.ShloMosaic.ValueIdx

/-- A matrix of extended reals over the index set of a literal rank-2 shape. -/
abbrev Mat (a b : ℕ) : Type := (⟨2, ![a, b]⟩ : Shape).Idx → EReal
/-- A vector of extended reals over the index set of a literal rank-1 shape. -/
abbrev Vec1 (a : ℕ) : Type := (⟨1, ![a]⟩ : Shape).Idx → EReal

/-- The rectifier: the maximum with the value of the zero word. -/
def relu (z : EReal) : EReal := max z (Ideal.ofBits .f32 0x00000000#32)

/-- One dense layer on one row: `(∑ k, h k · W k j) + b j`. -/
def dense {K J : ℕ} (h : Fin K → EReal) (W : Mat K J) (b : Vec1 J) (j : Fin J) : EReal :=
  (∑ k : Fin K, h k * W (ix2 k j)) + b (ix1 j)

/-- The first hidden layer of row `n`. -/
def hidden1 (x : Mat 4194304 32) (W0 : Mat 32 32) (b0 : Vec1 32) (n : Fin 4194304) (k : Fin 32) : EReal :=
  relu (dense (fun q => x (ix2 n q)) W0 b0 k)

/-- The second hidden layer of row `n`. -/
def hidden2 (x : Mat 4194304 32) (W0 W1 : Mat 32 32) (b0 b1 : Vec1 32) (n : Fin 4194304) (k : Fin 32) : EReal :=
  relu (dense (fun q => hidden1 x W0 b0 n q) W1 b1 k)

/-- The perceptron: row `n`, output `j`. -/
def mlp (x : Mat 4194304 32) (W0 W1 : Mat 32 32) (W2 : Mat 32 3) (b0 b1 : Vec1 32) (b2 : Vec1 3) : Mat 4194304 3 :=
  fun i => dense (fun q => hidden2 x W0 W1 b0 b1 (i 0) q) W2 b2 (i 1)

/-- One dense layer on one row, the bias given as a one-row matrix. -/
def denseRow {K J : ℕ} (h : Fin K → EReal) (W : Mat K J) (b : Mat 1 J) (j : Fin J) : EReal :=
  (∑ k : Fin K, h k * W (ix2 k j)) + b (ix2 0 j)

/-- The packed computation on one packed row `xr` of width 128. -/
def packedRow (xr : Fin 128 → EReal) (A0 : Mat 128 128) (c0 : Mat 1 128) (A1 : Mat 128 128) (c1 : Mat 1 128)
    (A2 : Mat 128 12) (c2 : Mat 1 12) (c : Fin 12) : EReal :=
  denseRow (fun q => relu (denseRow (fun q' => relu (denseRow xr A0 c0 q')) A1 c1 q)) A2 c2 c

/-- The packed computation on the whole packed array: row by row. -/
def packed (X : Mat 1048576 128) (A0 : Mat 128 128) (c0 : Mat 1 128) (A1 : Mat 128 128) (c1 : Mat 1 128)
    (A2 : Mat 128 12) (c2 : Mat 1 12) : Mat 1048576 12 :=
  fun i => packedRow (fun q => X (ix2 (i 0) q)) A0 c0 A1 c1 A2 c2 (i 1)

/-- Lane `32·a + k` of a packed row of width 128. -/
def lane32 (a : Fin 4) (k : Fin 32) : Fin 128 := ⟨32 * a.val + k.val, by have := a.isLt; have := k.isLt; omega⟩
/-- Lane `3·a + j` of a packed row of width 12. -/
def lane3 (a : Fin 4) (j : Fin 3) : Fin 12 := ⟨3 * a.val + j.val, by have := a.isLt; have := j.isLt; omega⟩
/-- Row `4·r + a` of the unpacked array. -/
def row4 (r : Fin 1048576) (a : Fin 4) : Fin 4194304 := ⟨4 * r.val + a.val, by have := a.isLt; have := r.isLt; omega⟩

/-- The 4×4 identity's entry, as an extended real. -/
def eye (a a' : Fin 4) : EReal := if a = a' then 1 else 0

end Cert.MlpSpec

end
-- ==== Proof.RefIsSpec.lean ====
/-
  The reference program's value, read index by index, is the three-layer perceptron of the specification:
  each contraction is the sum over the 32 lanes of the row, each broadcast bias is read at the output lane,
  each rectifier is the maximum with the value of the zero word.
-/
import proofs.«152246_j72816875536992_2_alg».proof.Proof.Gen.ReferenceIdeal.Read
import proofs.«152246_j72816875536992_2_alg».proof.Proof.Spec

noncomputable section

open scoped BigOperators

namespace Cert.ReferenceIdeal.RefValue

open Cert.ReferenceIdeal Cert.ReferenceIdeal.Read Cert.MlpSpec Idealize.ShloMosaic Idealize.ShloMosaic.ValueIdx
  Idealize.ShloMosaic.TcCoe Idealize.SL.Sem

/-! ## The index maps of the contractions and broadcasts, by coordinates -/

theorem lidx0 (n : Fin 4194304) (j k : Fin 32) : lidx_main_v0 (ix2 n j) k = ix2 n k :=
  funext fun a => Fin.ext (by match a with | ⟨0, _⟩ => rfl | ⟨1, _⟩ => rfl)
theorem ridx0 (n : Fin 4194304) (j k : Fin 32) : ridx_main_v0 (ix2 n j) k = ix2 k j :=
  funext fun a => Fin.ext (by match a with | ⟨0, _⟩ => rfl | ⟨1, _⟩ => rfl)
theorem bidx0 (n : Fin 4194304) (j : Fin 32) : idx_main_v1 (idx_main_v2 (ix2 n j)) = ix1 j :=
  funext fun a => Fin.ext (by match a with | ⟨0, _⟩ => rfl)
theorem lidx5 (n : Fin 4194304) (j k : Fin 32) : lidx_main_v5 (ix2 n j) k = ix2 n k :=
  funext fun a => Fin.ext (by match a with | ⟨0, _⟩ => rfl | ⟨1, _⟩ => rfl)
theorem ridx5 (n : Fin 4194304) (j k : Fin 32) : ridx_main_v5 (ix2 n j) k = ix2 k j :=
  funext fun a => Fin.ext (by match a with | ⟨0, _⟩ => rfl | ⟨1, _⟩ => rfl)
theorem bidx5 (n : Fin 4194304) (j : Fin 32) : idx_main_v6 (idx_main_v7 (ix2 n j)) = ix1 j :=
  funext fun a => Fin.ext (by match a with | ⟨0, _⟩ => rfl)
theorem lidx10 (n : Fin 4194304) (j : Fin 3) (k : Fin 32) : lidx_main_v10 (ix2 n j) k = ix2 n k :=
  funext fun a => Fin.ext (by match a with | ⟨0, _⟩ => rfl | ⟨1, _⟩ => rfl)
theorem ridx10 (n : Fin 4194304) (j : Fin 3) (k : Fin 32) : ridx_main_v10 (ix2 n j) k = ix2 k j :=
  funext fun a => Fin.ext (by match a with | ⟨0, _⟩ => rfl | ⟨1, _⟩ => rfl)
theorem bidx10 (n : Fin 4194304) (j : Fin 3) : idx_main_v11 (idx_main_v12 (ix2 n j)) = ix1 j :=
  funext fun a => Fin.ext (by match a with | ⟨0, _⟩ => rfl)

/-! ## Layer by layer -/

/-- The first rectified layer of the reference is the first hidden layer. -/
theorem v4_eq (x0 : (⟨S4194304x32, .f32⟩ : BufTy).Contents (Elt Ideal)) (x1 : (⟨S32x32, .f32⟩ : BufTy).Contents (Elt Ideal))
    (x4 : (⟨S32, .f32⟩ : BufTy).Contents (Elt Ideal)) (n : Fin 4194304) (k : Fin 32) :
    val_main_v4 (F := Ideal) x0 x1 x4 (ix2 n k) = hidden1 x0 x1 x4 n k := by
  rw [val_main_v4_apply, val_main_v3_apply, val_main_v0_apply, val_main_v2_apply, val_main_v1_apply,
    val_main_call0_v0_apply, val_main_call0_cst_apply]
  simp only [lidx0, ridx0, bidx0]
  rfl

/-- The second rectified layer of the reference is the second hidden layer. -/
theorem v9_eq (x0 : (⟨S4194304x32, .f32⟩ : BufTy).Contents (Elt Ideal)) (x1 x2 : (⟨S32x32, .f32⟩ : BufTy).Contents (Elt Ideal))
    (x4 x5 : (⟨S32, .f32⟩ : BufTy).Contents (Elt Ideal)) (n : Fin 4194304) (k : Fin 32) :
    val_main_v9 (F := Ideal) x0 x1 x2 x4 x5 (ix2 n k) = hidden2 x0 x1 x2 x4 x5 n k := by
  rw [val_main_v9_apply, val_main_v8_apply, val_main_v5_apply, val_main_v7_apply, val_main_v6_apply,
    val_main_call1_v0_apply, val_main_call1_cst_apply]
  simp only [lidx5, ridx5, bidx5, v4_eq]
  rfl

/-- The reference's result is the perceptron. -/
theorem ref_eq (x0 : (⟨S4194304x32, .f32⟩ : BufTy).Contents (Elt Ideal)) (x1 x2 : (⟨S32x32, .f32⟩ : BufTy).Contents (Elt Ideal))
    (x3 : (⟨S32x3, .f32⟩ : BufTy).Contents (Elt Ideal)) (x4 x5 : (⟨S32, .f32⟩ : BufTy).Contents (Elt Ideal))
    (x6 : (⟨S3, .f32⟩ : BufTy).Contents (Elt Ideal)) :
    Cert.ReferenceIdeal.Read.val_main_v13 (F := Ideal) x0 x1 x2 x3 x4 x5 x6 = Cert.MlpSpec.mlp x0 x1 x2 x3 x4 x5 x6 := by
  funext i
  obtain ⟨n, j, rfl⟩ : ∃ (n : Fin 4194304) (j : Fin 3), i = ix2 n j := ⟨i 0, i 1, eq_ix2 i⟩
  rw [val_main_v13_apply, val_main_v10_apply, val_main_v12_apply, val_main_v11_apply]
  simp only [lidx10, ridx10, bidx10, v9_eq]
  rfl

end Cert.ReferenceIdeal.RefValue

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.KernelRow.lean ====
/-
  The kernel body's stored value, read at one entry.

  The body multiplies its block of packed rows by the first block-diagonal weight matrix into a zero accumulator,
  adds the bias row to every row, takes the maximum with zero; does the same with the second weight matrix and
  bias; then multiplies by the third and adds the third bias. A matrix product into a zero accumulator is, on the
  extended reals, the plain sum over the contracted axis of the products of entries, and a one-row bias broadcast
  over the rows reads its one row; so entry `(p, c)` of the stored value is the packed computation
  (`Cert.MlpSpec.packedRow`) of row `p` of the loaded block.
-/
import proofs.«152246_j72816875536992_2_alg».proof.Proof.Gen.KernelIdeal.Skeleton
import proofs.«152246_j72816875536992_2_alg».proof.Proof.Spec
import proofs.«152246_j72816875536992_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Cert.MlpSpec
open Idealize.ShloMosaic Idealize.ShloMosaic.ValueIdx Idealize.ShloMosaic.PlainDot

/-- One layer before its rectifier: a plain `[M, K] × [K, N]` product into the zero accumulator plus a one-row
    bias broadcast over the rows, read at `(p, c)`, is `(∑ k, lhs (p, k) · rhs (k, c)) + bias (0, c)`. -/
theorem layer_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (lhs : FVec Ideal ⟨2, ![M, K]⟩ .f32) (rhs : FVec Ideal ⟨2, ![K, N]⟩ .f32) (bias : FVec Ideal ⟨2, ![1, N]⟩ .f32)
    (hb : (⟨2, ![1, N]⟩ : Shape).Broadcasts ⟨2, ![M, N]⟩) (p : Fin M) (c : Fin N) :
    addf (matmul d none lhs rhs (constant ⟨2, ![M, N]⟩ .f32 0x00000000#32)) (broadcastTo ⟨2, ![M, N]⟩ bias hb) (ix2 p c)
      = denseRow (fun k => lhs (ix2 p k)) rhs bias c := by
  rw [addf_apply]
  simp only [matmul]
  rw [Ideal.matmul_constant_zero_apply, broadcastTo_1b_ab_apply,
    plain_sum d h1 h2 h3 h4 h5 h6 hr hs (fun i j => lhs i * rhs j) p c]
  rfl

/-- The rectifier as the body spells it: the maximum with the splat of the zero word. -/
theorem relu_apply {M N : Nat} (v : FVec Ideal ⟨2, ![M, N]⟩ .f32) (i : (⟨2, ![M, N]⟩ : Shape).Idx) :
    maximumf v (broadcast ⟨2, ![M, N]⟩ (Scalar.ofBits .f32 0x00000000#32)) i = relu (v i) := rfl

/-- THE STORED VALUE AT AN ENTRY: the packed computation of the block's row. -/
theorem pay_apply (x0 : Vec Ideal S16384x128 .f32) (x1 : Vec Ideal S128x128 .f32) (x2 : Vec Ideal S1x128 .f32)
    (x3 : Vec Ideal S128x128 .f32) (x4 : Vec Ideal S1x128 .f32) (x5 : Vec Ideal S128x12 .f32) (x6 : Vec Ideal S1x12 .f32)
    (p : Fin 16384) (c : Fin 12) :
    k0_pay1 (F := Ideal) x0 x1 x2 x3 x4 x5 x6 (ix2 p c) = packedRow (fun q => x0 (ix2 p q)) x1 x2 x3 x4 x5 x6 c := by
  unfold k0_pay1 packedRow
  simp only [shapeCast_self]
  refine (layer_apply dot_S16384x128_S128x12_S16384x12_1_0_0_1_n_n rfl rfl rfl rfl rfl rfl rfl rfl _ x5 x6 _ p c).trans ?_
  refine congrArg (fun h => denseRow h x5 x6 c) (funext fun q => ?_)
  refine (relu_apply _ (ix2 p q)).trans (congrArg relu ?_)
  refine (layer_apply dot_S16384x128_S128x128_S16384x128_1_0_0_1_n_n rfl rfl rfl rfl rfl rfl rfl rfl _ x3 x4 _ p q).trans ?_
  refine congrArg (fun h => denseRow h x3 x4 q) (funext fun q' => ?_)
  refine (relu_apply _ (ix2 p q')).trans (congrArg relu ?_)
  exact layer_apply dot_S16384x128_S128x128_S16384x128_1_0_0_1_n_n rfl rfl rfl rfl rfl rfl rfl rfl x0 x1 x2 _ p q'

end Cert.KernelIdeal.Row

end
-- ==== Proof.KernelArray.lean ====
/-
  From the blocks to the whole array: what the kernel region leaves in its output array.

  The grid has 64 points; point `t` reads rows `16384·t … 16384·t + 16383` of the packed input, the whole of each
  weight matrix and bias row, and writes rows `16384·t …` of the packed output. By the entry lemma of the stored
  value, what point `t` writes back is block `t` of ONE whole-array function of the region's operand arrays:
  the packed computation `Cert.MlpSpec.packed`, row by row. The 64 blocks tile the output's rows (row `r` is
  in block `r / 16384`), so after the region the output array IS that function.
-/
import proofs.«152246_j72816875536992_2_alg».proof.Proof.Gen.KernelIdeal.Frame
import proofs.«152246_j72816875536992_2_alg».proof.Proof.KernelRow
import Idealize.ShloMosaic.Lib.Pipeline.Value

set_option maxRecDepth 16384

noncomputable section

namespace Cert.KernelIdeal.Array

open Cert.KernelIdeal Cert.KernelIdeal.Gen Cert.MlpSpec Cert.KernelIdeal.Row
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The packed computation of the region's operand arrays, as the region finds them. -/
abbrev regionValue (c : Dev nD) : S1048576x12.Idx → EReal :=
  packed (V m c main_v21) (V m c main_v6) (V m c main_v12) (V m c main_v7) (V m c main_v16) (V m c main_v8) (V m c main_v20)

/-- The printed index maps over the grid: the packed input and the output move one block of rows per point, every
    other operand stays at its one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The first weight matrix's one block is the whole matrix. -/
theorem iblk1_eq (c : Dev nD) (t : Fin cfg0.N) : (iblk m c 1 t : S128x128.Idx → EReal) = V m c main_v6 := by
  funext y
  show V m c main_v6 (((cfg0.win 1).blk t).view.emb y) = V m c main_v6 y
  obtain ⟨-, -, e10, e11, e20, e21, e30, e31, e40, e41, e50, e51, e60, e61, -, -⟩ := index_maps t
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias row's one block is the whole row. -/
theorem iblk2_eq (c : Dev nD) (t : Fin cfg0.N) : (iblk m c 2 t : S1x128.Idx → EReal) = V m c main_v12 := by
  funext y
  show V m c main_v12 (((cfg0.win 2).blk t).view.emb y) = V m c main_v12 y
  obtain ⟨-, -, e10, e11, e20, e21, e30, e31, e40, e41, e50, e51, e60, e61, -, -⟩ := index_maps t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight matrix's one block is the whole matrix. -/
theorem iblk3_eq (c : Dev nD) (t : Fin cfg0.N) : (iblk m c 3 t : S128x128.Idx → EReal) = V m c main_v7 := by
  funext y
  show V m c main_v7 (((cfg0.win 3).blk t).view.emb y) = V m c main_v7 y
  obtain ⟨-, -, e10, e11, e20, e21, e30, e31, e40, e41, e50, e51, e60, e61, -, -⟩ := index_maps t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias row's one block is the whole row. -/
theorem iblk4_eq (c : Dev nD) (t : Fin cfg0.N) : (iblk m c 4 t : S1x128.Idx → EReal) = V m c main_v16 := by
  funext y
  show V m c main_v16 (((cfg0.win 4).blk t).view.emb y) = V m c main_v16 y
  obtain ⟨-, -, e10, e11, e20, e21, e30, e31, e40, e41, e50, e51, e60, e61, -, -⟩ := index_maps t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The third weight matrix's one block is the whole matrix. -/
theorem iblk5_eq (c : Dev nD) (t : Fin cfg0.N) : (iblk m c 5 t : S128x12.Idx → EReal) = V m c main_v8 := by
  funext y
  show V m c main_v8 (((cfg0.win 5).blk t).view.emb y) = V m c main_v8 y
  obtain ⟨-, -, e10, e11, e20, e21, e30, e31, e40, e41, e50, e51, e60, e61, -, -⟩ := index_maps t
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 12 + 1 * (y 1).val = (y 1).val; omega

/-- The third bias row's one block is the whole row. -/
theorem iblk6_eq (c : Dev nD) (t : Fin cfg0.N) : (iblk m c 6 t : S1x12.Idx → EReal) = V m c main_v20 := by
  funext y
  show V m c main_v20 (((cfg0.win 6).blk t).view.emb y) = V m c main_v20 y
  obtain ⟨-, -, e10, e11, e20, e21, e30, e31, e40, e41, e50, e51, e60, e61, -, -⟩ := index_maps t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 12 + 1 * (y 1).val = (y 1).val; omega

/-- WHAT POINT `t` WRITES BACK is block `t` of the packed computation of the region's operand arrays. -/
theorem flushed_eq (c : Dev nD) (t : Fin cfg0.N) :
    (dats m 0 c).flushed 7 t = ((cfg0.win 7).blk t).view.read (Elt Ideal) (regionValue m c) := by
  show (cfg0.win 7).cut (grid0.coords t) ((dats m 0 c).after 7 t) = _
  rw [after0_7]
  unfold out0_7
  rw [View.canon_unit_zero offsets_zero]
  simp only [View.ld_unit_zero (S := S16384x128) offsets_zero, View.ld_unit_zero (S := S128x128) offsets_zero,
    View.ld_unit_zero (S := S1x128) offsets_zero, View.ld_unit_zero (S := S128x12) offsets_zero,
    View.ld_unit_zero (S := S1x12) offsets_zero]
  rw [iblk1_eq, iblk2_eq, iblk3_eq, iblk4_eq, iblk5_eq, iblk6_eq]
  funext y
  show k0_pay1 (F := Ideal) (iblk m c 0 t) (V m c main_v6) (V m c main_v12) (V m c main_v7) (V m c main_v16) (V m c main_v8) (V m c main_v20) y
    = regionValue m c (((cfg0.win 7).blk t).view.emb y)
  obtain ⟨e00, e01, -, -, -, -, -, -, -, -, -, -, -, -, e70, e71⟩ := index_maps t
  refine (congrArg (k0_pay1 (F := Ideal) (iblk m c 0 t) (V m c main_v6) (V m c main_v12) (V m c main_v7) (V m c main_v16) (V m c main_v8) (V m c main_v20))
    (eq_ix2 (n0 := 16384) (n1 := 12) y)).trans ?_
  refine (pay_apply (iblk m c 0 t) (V m c main_v6) (V m c main_v12) (V m c main_v7) (V m c main_v16) (V m c main_v8) (V m c main_v20) (y 0) (y 1)).trans ?_
  have h1 : (((cfg0.win 7).blk t).view.emb y) 1 = y 1 :=
    Fin.ext (by show win0_7.index t (1 : Fin 2) * 12 + 1 * (y 1).val = (y 1).val; omega)
  have h0 : ∀ q : Fin 128, iblk m c 0 t (ix2 (y 0) q) = V m c main_v21 (ix2 ((((cfg0.win 7).blk t).view.emb y) 0) q) := fun q => by
    show V m c main_v21 (((cfg0.win 0).blk t).view.emb (ix2 (y 0) q)) = _
    refine congrArg _ (funext fun a => Fin.ext ?_)
    match a with
    | ⟨0, _⟩ => show win0_0.index t (0 : Fin 2) * 16384 + 1 * (y 0).val = win0_7.index t (0 : Fin 2) * 16384 + 1 * (y 0).val; omega
    | ⟨1, _⟩ => show win0_0.index t (1 : Fin 2) * 128 + 1 * q.val = q.val; omega
  show packedRow _ _ _ _ _ _ _ (y 1) = packedRow (fun q => V m c main_v21 (ix2 ((((cfg0.win 7).blk t).view.emb y) 0) q)) _ _ _ _ _ _ ((((cfg0.win 7).blk t).view.emb y) 1)
  rw [h1]
  exact congrArg (fun f => packedRow f (V m c main_v6) (V m c main_v12) (V m c main_v7) (V m c main_v16) (V m c main_v8) (V m c main_v20) (y 1)) (funext h0)

/-- An index of the output array is in point `t`'s block iff each coordinate is in the block's range on its axis. -/
theorem mem_blk (t : Fin cfg0.N) (i : S1048576x12.Idx) :
    i ∈ ((cfg0.win 7).blk t).view.set ↔ ∀ a : Fin 2, win0_7.index t a * S16384x12.size a ≤ (i a).val ∧ (i a).val < win0_7.index t a * S16384x12.size a + S16384x12.size a := by
  show i ∈ ((View.whole main_v22).slice (win0_7.rect t)).set ↔ _
  rw [View.set_slice_whole, Rect.mem_set_unit]
  exact Iff.rfl

/-- The 64 blocks tile the output's rows: row `r` is in the block of point `r / 16384`. -/
theorem cover (i : S1048576x12.Idx) : ∃ t : Fin cfg0.N, (cfg0.win 7).flush t = true ∧ i ∈ ((cfg0.win 7).blk t).view.set := by
  have hi0 : (i 0).val < 1048576 := (i 0).isLt
  have hi1 : (i 1).val < 12 := (i 1).isLt
  have hN : (i 0).val / 16384 < cfg0.N := by show _ < grid0.N; rw [N_0]; omega
  obtain ⟨-, -, -, -, -, -, -, -, -, -, -, -, -, -, e70, e71⟩ := index_maps ⟨(i 0).val / 16384, hN⟩
  refine ⟨⟨(i 0).val / 16384, hN⟩, flush0_7 _, ?_⟩
  rw [mem_blk]
  intro a
  match a with
  | ⟨0, _⟩ =>
    show win0_7.index ⟨(i 0).val / 16384, hN⟩ (0 : Fin 2) * 16384 ≤ (i 0).val ∧ (i 0).val < win0_7.index ⟨(i 0).val / 16384, hN⟩ (0 : Fin 2) * 16384 + 16384
    rw [e70]
    show (i 0).val / 16384 * 16384 ≤ (i 0).val ∧ (i 0).val < (i 0).val / 16384 * 16384 + 16384
    omega
  | ⟨1, _⟩ =>
    show win0_7.index ⟨(i 0).val / 16384, hN⟩ (1 : Fin 2) * 12 ≤ (i 1).val ∧ (i 1).val < win0_7.index ⟨(i 0).val / 16384, hN⟩ (1 : Fin 2) * 12 + 12
    omega

/-- THE OUTPUT ARRAY after the region: the packed computation of the region's operand arrays. -/
theorem final (c : Dev nD) : (dats m 0 c).arrAt 7 cfg0.N = regionValue m c :=
  (dats m 0 c).arrAt_eq_of_cover 7 (regionValue m c) (fun t _ => flushed_eq m c t) cover

end Cert.KernelIdeal.Array

end
-- ==== Proof.PackedAlgebra.lean ====
/-
  The packed computation is the perceptron, four rows at a time.

  A sum over the 128 lanes of a packed row is the double sum over the four blocks and the 32 lanes of a block
  (`sum_lane32`). Against a block-diagonal matrix the blocks off the diagonal contribute exact zeros, and on the
  extended reals `0 * y = 0` and `y * 0 = 0` for every `y`, so the sum collapses to the 32 lanes of the diagonal block
  with no finiteness hypothesis (`sum_blockdiag`). Hence one packed dense layer read at a lane of block `a'` is the
  dense layer of the row carried by that block (`denseRow_blockdiag`), and layer by layer the packed row is the four
  rows' perceptron values side by side (`packedRow_eq`).
-/
import proofs.«152246_j72816875536992_2_alg».proof.Proof.Spec
import Mathlib.Algebra.BigOperators.Fin
import Mathlib.Data.Fintype.BigOperators

noncomputable section

open scoped BigOperators

namespace Cert.MlpSpec

open Idealize.ShloMosaic Idealize.ShloMosaic.ValueIdx

/-- The 128 lanes are the pairs (block, lane within the block). -/
def laneEquiv : Fin 4 × Fin 32 ≃ Fin 128 where
  toFun p := lane32 p.1 p.2
  invFun q := (⟨q.val / 32, by have := q.isLt; omega⟩, ⟨q.val % 32, Nat.mod_lt _ (by decide)⟩)
  left_inv p := by
    obtain ⟨a, k⟩ := p
    have ha := a.isLt
    have hk := k.isLt
    refine Prod.ext (Fin.ext ?_) (Fin.ext ?_)
    · show (32 * a.val + k.val) / 32 = a.val
      omega
    · show (32 * a.val + k.val) % 32 = k.val
      omega
  right_inv q := by
    refine Fin.ext ?_
    show 32 * (q.val / 32) + q.val % 32 = q.val
    omega

/-- A sum over the 128 lanes, block by block. -/
theorem sum_lane32 {M : Type*} [AddCommMonoid M] (g : Fin 128 → M) :
    ∑ q : Fin 128, g q = ∑ a : Fin 4, ∑ k : Fin 32, g (lane32 a k) := by
  rw [← Equiv.sum_comp laneEquiv g, Fintype.sum_prod_type]
  rfl

/-- Against a block-diagonal column, a sum over the 128 lanes is the sum over the diagonal block's 32 lanes:
    the other blocks' terms are `f q * (0 * w) = 0`, whatever `f q` and `w` are. -/
theorem sum_blockdiag {J : ℕ} (f : Fin 128 → EReal) (W : Mat 32 J) (B : Fin 128 → EReal) (a' : Fin 4) (j : Fin J)
    (hB : ∀ a k, B (lane32 a k) = eye a a' * W (ix2 k j)) :
    ∑ q : Fin 128, f q * B q = ∑ k : Fin 32, f (lane32 a' k) * W (ix2 k j) := by
  rw [sum_lane32, Finset.sum_eq_single a']
  · refine Finset.sum_congr rfl fun k _ => ?_
    rw [hB, eye, if_pos rfl, one_mul]
  · intro a _ ha
    refine Finset.sum_eq_zero fun k _ => ?_
    rw [hB, eye, if_neg ha, zero_mul, mul_zero]
  · intro h
    exact absurd (Finset.mem_univ _) h

/-- One packed dense layer, read at an output lane `q` of block `a'` (inner lane `j`), is the dense layer of the
    row that block `a'` of the packed input carries. -/
theorem denseRow_blockdiag {N J : ℕ} (f : Fin 128 → EReal) (g : Fin 32 → EReal) (A : Mat 128 N) (c : Mat 1 N)
    (W : Mat 32 J) (b : Vec1 J) (q : Fin N) (a' : Fin 4) (j : Fin J)
    (hf : ∀ k, f (lane32 a' k) = g k)
    (hA : ∀ a k, A (ix2 (lane32 a k) q) = eye a a' * W (ix2 k j))
    (hc : c (ix2 0 q) = b (ix1 j)) :
    denseRow f A c q = dense g W b j := by
  unfold denseRow dense
  rw [sum_blockdiag f W (fun p => A (ix2 p q)) a' j hA, hc]
  simp only [hf]

/-- The packed row is the four rows' perceptron values side by side. -/
theorem packedRow_eq (x : Mat 4194304 32) (W0 W1 : Mat 32 32) (W2 : Mat 32 3) (b0 b1 : Vec1 32) (b2 : Vec1 3)
    (r : Fin 1048576) (xr : Fin 128 → EReal) (A0 : Mat 128 128) (c0 : Mat 1 128) (A1 : Mat 128 128) (c1 : Mat 1 128)
    (A2 : Mat 128 12) (c2 : Mat 1 12)
    (hx : ∀ a k, xr (lane32 a k) = x (ix2 (row4 r a) k))
    (hA0 : ∀ a k a' j, A0 (ix2 (lane32 a k) (lane32 a' j)) = eye a a' * W0 (ix2 k j))
    (hA1 : ∀ a k a' j, A1 (ix2 (lane32 a k) (lane32 a' j)) = eye a a' * W1 (ix2 k j))
    (hA2 : ∀ a k a' j, A2 (ix2 (lane32 a k) (lane3 a' j)) = eye a a' * W2 (ix2 k j))
    (hc0 : ∀ a j, c0 (ix2 0 (lane32 a j)) = b0 (ix1 j)) (hc1 : ∀ a j, c1 (ix2 0 (lane32 a j)) = b1 (ix1 j))
    (hc2 : ∀ a j, c2 (ix2 0 (lane3 a j)) = b2 (ix1 j))
    (a : Fin 4) (j : Fin 3) :
    packedRow xr A0 c0 A1 c1 A2 c2 (lane3 a j) = mlp x W0 W1 W2 b0 b1 b2 (ix2 (row4 r a) j) := by
  have h1 : ∀ (a : Fin 4) (k : Fin 32), relu (denseRow xr A0 c0 (lane32 a k)) = hidden1 x W0 b0 (row4 r a) k := by
    intro a k
    unfold hidden1
    rw [denseRow_blockdiag xr (fun q => x (ix2 (row4 r a) q)) A0 c0 W0 b0 (lane32 a k) a k (fun k' => hx a k')
      (fun a'' k'' => hA0 a'' k'' a k) (hc0 a k)]
  have h2 : ∀ (a : Fin 4) (k : Fin 32),
      relu (denseRow (fun q' => relu (denseRow xr A0 c0 q')) A1 c1 (lane32 a k)) = hidden2 x W0 W1 b0 b1 (row4 r a) k := by
    intro a k
    unfold hidden2
    rw [denseRow_blockdiag (fun q' => relu (denseRow xr A0 c0 q')) (fun q => hidden1 x W0 b0 (row4 r a) q) A1 c1 W1 b1
      (lane32 a k) a k (fun k' => h1 a k') (fun a'' k'' => hA1 a'' k'' a k) (hc1 a k)]
  unfold packedRow mlp
  exact denseRow_blockdiag (fun q => relu (denseRow (fun q' => relu (denseRow xr A0 c0 q')) A1 c1 q))
    (fun q => hidden2 x W0 W1 b0 b1 (row4 r a) q) A2 c2 W2 b2 (lane3 a j) a j (fun k' => h2 a k')
    (fun a'' k'' => hA2 a'' k'' a j) (hc2 a j)

end Cert.MlpSpec

end
-- ==== Proof.HostRows.lean ====
/-
  What the kernel region finds in the arrays the host operations before it wrote.

  The input array of shape [4194304, 32] is reshaped to [1048576, 128]: a reshape keeps the row-major position,
  and `128·r + (32·a + k) = 32·(4·r + a) + k`, so lane `32·a + k` of packed row `r` is entry `k` of row `4·r + a`.

  Each bias `b : [n]` is reshaped to [1, n], broadcast along a new leading axis to [4, n], reshaped to [4·n] and to
  [1, 4·n]: position `n·a + j` of the one row is `b j` for every `a`: the bias repeated four times.
-/
import proofs.«152246_j72816875536992_2_alg».proof.Proof.Gen.KernelIdeal.Frame
import proofs.«152246_j72816875536992_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostPrefix

open Cert.KernelIdeal Cert.KernelIdeal.Gen Cert.MlpSpec
open Idealize.ShloMosaic Idealize.ShloMosaic.TcCoe Idealize.ShloMosaic.ValueIdx Idealize.SL.Sem Idealize.ShloMosaic.StableHlo

/-- A reshape of a [4194304, 32] array to [1048576, 128], read at packed row `r`, lane `32·a + k`. -/
theorem reshape_x_apply {α : Type} (x : S4194304x32.Idx → α) (h : S4194304x32.ShapeCasts S1048576x128)
    (r : Fin 1048576) (a : Fin 4) (k : Fin 32) :
    shapeCast S1048576x128 x h (ix2 r (lane32 a k)) = x (ix2 (row4 r a) k) := by
  refine shapeCast_apply x h _ _ ?_
  rw [Shape.rowMajor_val_two, Shape.rowMajor_val_two]
  show (row4 r a).val * 32 + k.val = r.val * 128 + (lane32 a k).val
  show (4 * r.val + a.val) * 32 + k.val = r.val * 128 + (32 * a.val + k.val)
  omega

/-- A bias of length 32 reshaped to one row, broadcast to four rows, flattened and reshaped to one row of width 128:
    lane `32·a + j` is entry `j`. -/
theorem bias32_apply {α : Type} (b : S32.Idx → α) (h1 : S32.ShapeCasts S1x32)
    (h2 : S1x32.BroadcastsInDim S4x32 (![0, 1] : Fin 2 → Fin S4x32.rank)) (h3 : S4x32.ShapeCasts S128)
    (h4 : S128.ShapeCasts S1x128) (a : Fin 4) (j : Fin 32) :
    shapeCast S1x128 (shapeCast S128 (broadcastInDim S4x32 ![0, 1] h2 (shapeCast S1x32 b h1)) h3) h4 (ix2 0 (lane32 a j))
      = b (ix1 j) := by
  refine (shapeCast_apply _ h4 _ (ix1 (lane32 a j)) ?_).trans ?_
  · rw [Shape.rowMajor_val_one, Shape.rowMajor_val_two]
    show (lane32 a j).val = 0 * 128 + (lane32 a j).val
    omega
  refine (shapeCast_apply _ h3 _ (ix2 a j) ?_).trans ?_
  · rw [Shape.rowMajor_val_two, Shape.rowMajor_val_one]
    show a.val * 32 + j.val = 32 * a.val + j.val
    omega
  refine (broadcastInDim_apply _ h2 _ _ (ix2 0 j) (fun ax => match ax with
    | ⟨0, _⟩ => by show 0 = if (1 : Nat) = 1 then 0 else a.val; rw [if_pos rfl]
    | ⟨1, _⟩ => by show j.val = if (32 : Nat) = 1 then 0 else j.val; rw [if_neg (by decide)])).trans ?_
  refine shapeCast_apply _ h1 _ (ix1 j) ?_
  rw [Shape.rowMajor_val_one, Shape.rowMajor_val_two]
  show j.val = 0 * 32 + j.val
  omega

/-- The same for a bias of length 3: lane `3·a + j` of the one row of width 12 is entry `j`. -/
theorem bias3_apply {α : Type} (b : S3.Idx → α) (h1 : S3.ShapeCasts S1x3)
    (h2 : S1x3.BroadcastsInDim S4x3 (![0, 1] : Fin 2 → Fin S4x3.rank)) (h3 : S4x3.ShapeCasts S12)
    (h4 : S12.ShapeCasts S1x12) (a : Fin 4) (j : Fin 3) :
    shapeCast S1x12 (shapeCast S12 (broadcastInDim S4x3 ![0, 1] h2 (shapeCast S1x3 b h1)) h3) h4 (ix2 0 (lane3 a j))
      = b (ix1 j) := by
  refine (shapeCast_apply _ h4 _ (ix1 (lane3 a j)) ?_).trans ?_
  · rw [Shape.rowMajor_val_one, Shape.rowMajor_val_two]
    show (lane3 a j).val = 0 * 12 + (lane3 a j).val
    omega
  refine (shapeCast_apply _ h3 _ (ix2 a j) ?_).trans ?_
  · rw [Shape.rowMajor_val_two, Shape.rowMajor_val_one]
    show a.val * 3 + j.val = 3 * a.val + j.val
    omega
  refine (broadcastInDim_apply _ h2 _ _ (ix2 0 j) (fun ax => match ax with
    | ⟨0, _⟩ => by show 0 = if (1 : Nat) = 1 then 0 else a.val; rw [if_pos rfl]
    | ⟨1, _⟩ => by show j.val = if (3 : Nat) = 1 then 0 else j.val; rw [if_neg (by decide)])).trans ?_
  refine shapeCast_apply _ h1 _ (ix1 j) ?_
  rw [Shape.rowMajor_val_one, Shape.rowMajor_val_two]
  show j.val = 0 * 3 + j.val
  omega

variable (m : (ℓ : Loc nD τ sig) → Buf (Elt Ideal) ℓ) (c : Dev nD)

/-- The re-laid input as the region finds it: the reshape of the launched input. -/
theorem V_v21_eq : (V m c main_v21 : S1048576x128.Idx → EReal)
    = shapeCast S1048576x128 (m ((c : Thread nD τ).loc main_arg0) : S4194304x32.Idx → EReal) shapeCasts_S4194304x32_S1048576x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Lane `32·a + k` of packed row `r` is entry `k` of row `4·r + a` of the launched input. -/
theorem V_v21 (r : Fin 1048576) (a : Fin 4) (k : Fin 32) :
    (V m c main_v21 : S1048576x128.Idx → EReal) (ix2 r (lane32 a k))
      = (m ((c : Thread nD τ).loc main_arg0) : S4194304x32.Idx → EReal) (ix2 (row4 r a) k) := by
  rw [V_v21_eq]
  exact reshape_x_apply _ _ r a k

/-- The first bias row as the region finds it: the four host operations' composed term over the launched bias. -/
theorem V_v12_eq : (V m c main_v12 : S1x128.Idx → EReal)
    = shapeCast S1x128 (shapeCast S128 (broadcastInDim S4x32 ![0, 1] bcast_S1x32_S4x32_0_1
        (shapeCast S1x32 (m ((c : Thread nD τ).loc main_arg4) : S32.Idx → EReal) shapeCasts_S32_S1x32))
        shapeCasts_S4x32_S128) shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Lane `32·a + j` of the first bias row is entry `j` of the launched first bias. -/
theorem V_v12 (a : Fin 4) (j : Fin 32) :
    (V m c main_v12 : S1x128.Idx → EReal) (ix2 0 (lane32 a j))
      = (m ((c : Thread nD τ).loc main_arg4) : S32.Idx → EReal) (ix1 j) := by
  rw [V_v12_eq]
  exact bias32_apply _ _ _ _ _ a j

/-- The second bias row as the region finds it. -/
theorem V_v16_eq : (V m c main_v16 : S1x128.Idx → EReal)
    = shapeCast S1x128 (shapeCast S128 (broadcastInDim S4x32 ![0, 1] bcast_S1x32_S4x32_0_1
        (shapeCast S1x32 (m ((c : Thread nD τ).loc main_arg5) : S32.Idx → EReal) shapeCasts_S32_S1x32))
        shapeCasts_S4x32_S128) shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Lane `32·a + j` of the second bias row is entry `j` of the launched second bias. -/
theorem V_v16 (a : Fin 4) (j : Fin 32) :
    (V m c main_v16 : S1x128.Idx → EReal) (ix2 0 (lane32 a j))
      = (m ((c : Thread nD τ).loc main_arg5) : S32.Idx → EReal) (ix1 j) := by
  rw [V_v16_eq]
  exact bias32_apply _ _ _ _ _ a j

/-- The third bias row as the region finds it. -/
theorem V_v20_eq : (V m c main_v20 : S1x12.Idx → EReal)
    = shapeCast S1x12 (shapeCast S12 (broadcastInDim S4x3 ![0, 1] bcast_S1x3_S4x3_0_1
        (shapeCast S1x3 (m ((c : Thread nD τ).loc main_arg6) : S3.Idx → EReal) shapeCasts_S3_S1x3))
        shapeCasts_S4x3_S12) shapeCasts_S12_S1x12 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Lane `3·a + j` of the third bias row is entry `j` of the launched third bias. -/
theorem V_v20 (a : Fin 4) (j : Fin 3) :
    (V m c main_v20 : S1x12.Idx → EReal) (ix2 0 (lane3 a j))
      = (m ((c : Thread nD τ).loc main_arg6) : S3.Idx → EReal) (ix1 j) := by
  rw [V_v20_eq]
  exact bias3_apply _ _ _ _ _ a j

end Cert.KernelIdeal.HostPrefix

end
-- ==== Proof.HostWeights.lean ====
/-
  What the host-computed block-diagonal weight arrays hold when the kernel region is entered.

  The program builds the 4×4 identity as the unsigned reading of the one-bit word "row + 0 = column", spreads it
  to the four axes (a, ·, a', ·), spreads a weight matrix W (32×32, or 32×3) to the axes (·, k, ·, j), multiplies
  entrywise and flattens (a, k, a', j) row-major to (32a+k, n·a'+j), n the matrix's width. Entry (32a+k, n·a'+j) of the
  result is therefore δ a a' · W k j, the products being the extended reals'.
-/
import proofs.«152246_j72816875536992_2_alg».proof.Proof.Gen.KernelIdeal.Frame
import proofs.«152246_j72816875536992_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostPrefix

open Cert.KernelIdeal Cert.KernelIdeal.Gen Cert.MlpSpec Idealize.ShloMosaic Idealize.ShloMosaic.TcCoe
open Idealize.ShloMosaic.ValueIdx Idealize.SL.Sem Idealize.ShloMosaic.StableHlo

/-- The 4×4 identity as the program builds it: the one-bit word of "row coordinate plus zero equals column coordinate", read unsigned. -/
def eyeV : FVec Ideal S4x4 .f32 :=
  uitofp .f32 (cmpi .eq (addi (iotaInDim S4x4 32 0) (broadcastInDim S4x4 ![] bcast_S_S4x4 (constantI S_ 32 0#32))) (iotaInDim S4x4 32 1))

/-- The word deciding the identity's entry, over the sixteen coordinate pairs. -/
theorem eye_word : ∀ a a' : Fin 4,
    IntOp.cmpi .eq (IntOp.addi (BitVec.ofNat 32 a.val) 0#32) (BitVec.ofNat 32 a'.val) = if a = a' then 1#1 else 0#1 := by
  decide

/-- The identity's entry is `δ a a'`. -/
theorem eyeV_apply (a a' : Fin 4) : eyeV (ix2 a a') = eye a a' := by
  show (((IntOp.cmpi .eq (IntOp.addi (BitVec.ofNat 32 a.val) 0#32) (BitVec.ofNat 32 a'.val)).toNat : ℝ) : EReal) = eye a a'
  rw [eye_word a a']
  unfold eye
  by_cases h : a = a'
  · rw [if_pos h, if_pos h]; simp
  · rw [if_neg h, if_neg h]; simp

/-- The Kronecker product of the identity with a 32×32 matrix, as the program builds it. -/
def kron32 (W : FVec Ideal S32x32 .f32) : FVec Ideal S128x128 .f32 :=
  shapeCast S128x128
    (mulf
      (broadcastInDim S4x32x4x32 ![0, 1, 2, 3] bcast_S4x1x4x1_S4x32x4x32_0_1_2_3
        (broadcastInDim S4x1x4x1 ![0, 2] bcast_S4x4_S4x1x4x1_0_2 eyeV))
      (broadcastInDim S4x32x4x32 ![0, 1, 2, 3] bcast_S1x32x1x32_S4x32x4x32_0_1_2_3
        (broadcastInDim S1x32x1x32 ![1, 3] bcast_S32x32_S1x32x1x32_1_3 W)))
    shapeCasts_S4x32x4x32_S128x128

/-- The identity spread over the four axes reads `δ a a'` at `(a, k, a', j)`. -/
theorem eye4_apply (E : FVec Ideal S4x4 .f32) (a : Fin 4) (k : Fin 32) (a' : Fin 4) (j : Fin 32) :
    broadcastInDim S4x32x4x32 ![0, 1, 2, 3] bcast_S4x1x4x1_S4x32x4x32_0_1_2_3
        (broadcastInDim S4x1x4x1 ![0, 2] bcast_S4x4_S4x1x4x1_0_2 E) (ix4 a k a' j) = E (ix2 a a') := by
  refine (broadcastInDim_apply _ bcast_S4x1x4x1_S4x32x4x32_0_1_2_3 _ (ix4 a k a' j) (ix4 a (0 : Fin 1) a' (0 : Fin 1)) (fun d => match d with
    | ⟨0, _⟩ => by show a.val = if (4 : Nat) = 1 then 0 else a.val; rw [if_neg (by decide)]
    | ⟨1, _⟩ => by show 0 = if (1 : Nat) = 1 then 0 else k.val; rw [if_pos rfl]
    | ⟨2, _⟩ => by show a'.val = if (4 : Nat) = 1 then 0 else a'.val; rw [if_neg (by decide)]
    | ⟨3, _⟩ => by show 0 = if (1 : Nat) = 1 then 0 else j.val; rw [if_pos rfl])).trans ?_
  exact broadcastInDim_apply _ bcast_S4x4_S4x1x4x1_0_2 E (ix4 a (0 : Fin 1) a' (0 : Fin 1)) (ix2 a a') (fun d => match d with
    | ⟨0, _⟩ => by show a.val = if (4 : Nat) = 1 then 0 else a.val; rw [if_neg (by decide)]
    | ⟨1, _⟩ => by show a'.val = if (4 : Nat) = 1 then 0 else a'.val; rw [if_neg (by decide)])

/-- The matrix spread over the four axes reads `W k j` at `(a, k, a', j)`. -/
theorem w4_apply (W : FVec Ideal S32x32 .f32) (a : Fin 4) (k : Fin 32) (a' : Fin 4) (j : Fin 32) :
    broadcastInDim S4x32x4x32 ![0, 1, 2, 3] bcast_S1x32x1x32_S4x32x4x32_0_1_2_3
        (broadcastInDim S1x32x1x32 ![1, 3] bcast_S32x32_S1x32x1x32_1_3 W) (ix4 a k a' j) = W (ix2 k j) := by
  refine (broadcastInDim_apply _ bcast_S1x32x1x32_S4x32x4x32_0_1_2_3 _ (ix4 a k a' j) (ix4 (0 : Fin 1) k (0 : Fin 1) j) (fun d => match d with
    | ⟨0, _⟩ => by show 0 = if (1 : Nat) = 1 then 0 else a.val; rw [if_pos rfl]
    | ⟨1, _⟩ => by show k.val = if (32 : Nat) = 1 then 0 else k.val; rw [if_neg (by decide)]
    | ⟨2, _⟩ => by show 0 = if (1 : Nat) = 1 then 0 else a'.val; rw [if_pos rfl]
    | ⟨3, _⟩ => by show j.val = if (32 : Nat) = 1 then 0 else j.val; rw [if_neg (by decide)])).trans ?_
  exact broadcastInDim_apply _ bcast_S32x32_S1x32x1x32_1_3 W (ix4 (0 : Fin 1) k (0 : Fin 1) j) (ix2 k j) (fun d => match d with
    | ⟨0, _⟩ => by show k.val = if (32 : Nat) = 1 then 0 else k.val; rw [if_neg (by decide)]
    | ⟨1, _⟩ => by show j.val = if (32 : Nat) = 1 then 0 else j.val; rw [if_neg (by decide)])

/-- The reshape to 128×128 reads lane `(32a+k, 32a'+j)` at `(a, k, a', j)`. -/
theorem cast32_apply (x : FVec Ideal S4x32x4x32 .f32) (a : Fin 4) (k : Fin 32) (a' : Fin 4) (j : Fin 32) :
    shapeCast S128x128 x shapeCasts_S4x32x4x32_S128x128 (ix2 (lane32 a k) (lane32 a' j)) = x (ix4 a k a' j) := by
  refine shapeCast_apply x shapeCasts_S4x32x4x32_S128x128 _ _ ?_
  rw [Shape.rowMajor_val_four, Shape.rowMajor_val_two]
  show ((a.val * 32 + k.val) * 4 + a'.val) * 32 + j.val = (32 * a.val + k.val) * 128 + (32 * a'.val + j.val)
  omega

/-- Entry `(32a+k, 32a'+j)` of the Kronecker product is `δ a a' · W k j`. -/
theorem kron32_apply (W : FVec Ideal S32x32 .f32) (a : Fin 4) (k : Fin 32) (a' : Fin 4) (j : Fin 32) :
    kron32 W (ix2 (lane32 a k) (lane32 a' j)) = eye a a' * W (ix2 k j) := by
  unfold kron32
  rw [cast32_apply, mulf_apply, eye4_apply, w4_apply, eyeV_apply]

/-- The Kronecker product of the identity with a 32×3 matrix, as the program builds it. -/
def kron3 (W : FVec Ideal S32x3 .f32) : FVec Ideal S128x12 .f32 :=
  shapeCast S128x12
    (mulf
      (broadcastInDim S4x32x4x3 ![0, 1, 2, 3] bcast_S4x1x4x1_S4x32x4x3_0_1_2_3
        (broadcastInDim S4x1x4x1 ![0, 2] bcast_S4x4_S4x1x4x1_0_2 eyeV))
      (broadcastInDim S4x32x4x3 ![0, 1, 2, 3] bcast_S1x32x1x3_S4x32x4x3_0_1_2_3
        (broadcastInDim S1x32x1x3 ![1, 3] bcast_S32x3_S1x32x1x3_1_3 W)))
    shapeCasts_S4x32x4x3_S128x12

/-- The identity spread over the four axes (last extent 3) reads `δ a a'` at `(a, k, a', j)`. -/
theorem eye4_apply3 (E : FVec Ideal S4x4 .f32) (a : Fin 4) (k : Fin 32) (a' : Fin 4) (j : Fin 3) :
    broadcastInDim S4x32x4x3 ![0, 1, 2, 3] bcast_S4x1x4x1_S4x32x4x3_0_1_2_3
        (broadcastInDim S4x1x4x1 ![0, 2] bcast_S4x4_S4x1x4x1_0_2 E) (ix4 a k a' j) = E (ix2 a a') := by
  refine (broadcastInDim_apply _ bcast_S4x1x4x1_S4x32x4x3_0_1_2_3 _ (ix4 a k a' j) (ix4 a (0 : Fin 1) a' (0 : Fin 1)) (fun d => match d with
    | ⟨0, _⟩ => by show a.val = if (4 : Nat) = 1 then 0 else a.val; rw [if_neg (by decide)]
    | ⟨1, _⟩ => by show 0 = if (1 : Nat) = 1 then 0 else k.val; rw [if_pos rfl]
    | ⟨2, _⟩ => by show a'.val = if (4 : Nat) = 1 then 0 else a'.val; rw [if_neg (by decide)]
    | ⟨3, _⟩ => by show 0 = if (1 : Nat) = 1 then 0 else j.val; rw [if_pos rfl])).trans ?_
  exact broadcastInDim_apply _ bcast_S4x4_S4x1x4x1_0_2 E (ix4 a (0 : Fin 1) a' (0 : Fin 1)) (ix2 a a') (fun d => match d with
    | ⟨0, _⟩ => by show a.val = if (4 : Nat) = 1 then 0 else a.val; rw [if_neg (by decide)]
    | ⟨1, _⟩ => by show a'.val = if (4 : Nat) = 1 then 0 else a'.val; rw [if_neg (by decide)])

/-- The 32×3 matrix spread over the four axes reads `W k j` at `(a, k, a', j)`. -/
theorem w4_apply3 (W : FVec Ideal S32x3 .f32) (a : Fin 4) (k : Fin 32) (a' : Fin 4) (j : Fin 3) :
    broadcastInDim S4x32x4x3 ![0, 1, 2, 3] bcast_S1x32x1x3_S4x32x4x3_0_1_2_3
        (broadcastInDim S1x32x1x3 ![1, 3] bcast_S32x3_S1x32x1x3_1_3 W) (ix4 a k a' j) = W (ix2 k j) := by
  refine (broadcastInDim_apply _ bcast_S1x32x1x3_S4x32x4x3_0_1_2_3 _ (ix4 a k a' j) (ix4 (0 : Fin 1) k (0 : Fin 1) j) (fun d => match d with
    | ⟨0, _⟩ => by show 0 = if (1 : Nat) = 1 then 0 else a.val; rw [if_pos rfl]
    | ⟨1, _⟩ => by show k.val = if (32 : Nat) = 1 then 0 else k.val; rw [if_neg (by decide)]
    | ⟨2, _⟩ => by show 0 = if (1 : Nat) = 1 then 0 else a'.val; rw [if_pos rfl]
    | ⟨3, _⟩ => by show j.val = if (3 : Nat) = 1 then 0 else j.val; rw [if_neg (by decide)])).trans ?_
  exact broadcastInDim_apply _ bcast_S32x3_S1x32x1x3_1_3 W (ix4 (0 : Fin 1) k (0 : Fin 1) j) (ix2 k j) (fun d => match d with
    | ⟨0, _⟩ => by show k.val = if (32 : Nat) = 1 then 0 else k.val; rw [if_neg (by decide)]
    | ⟨1, _⟩ => by show j.val = if (3 : Nat) = 1 then 0 else j.val; rw [if_neg (by decide)])

/-- The reshape to 128×12 reads lane `(32a+k, 3a'+j)` at `(a, k, a', j)`. -/
theorem cast3_apply (x : FVec Ideal S4x32x4x3 .f32) (a : Fin 4) (k : Fin 32) (a' : Fin 4) (j : Fin 3) :
    shapeCast S128x12 x shapeCasts_S4x32x4x3_S128x12 (ix2 (lane32 a k) (lane3 a' j)) = x (ix4 a k a' j) := by
  refine shapeCast_apply x shapeCasts_S4x32x4x3_S128x12 _ _ ?_
  rw [Shape.rowMajor_val_four, Shape.rowMajor_val_two]
  show ((a.val * 32 + k.val) * 4 + a'.val) * 3 + j.val = (32 * a.val + k.val) * 12 + (3 * a'.val + j.val)
  omega

/-- Entry `(32a+k, 3a'+j)` of the Kronecker product is `δ a a' · W k j`. -/
theorem kron3_apply (W : FVec Ideal S32x3 .f32) (a : Fin 4) (k : Fin 32) (a' : Fin 4) (j : Fin 3) :
    kron3 W (ix2 (lane32 a k) (lane3 a' j)) = eye a a' * W (ix2 k j) := by
  unfold kron3
  rw [cast3_apply, mulf_apply, eye4_apply3, w4_apply3, eyeV_apply]

variable (m : (ℓ : Loc nD τ sig) → Buf (Elt Ideal) ℓ) (c : Dev nD)

/-- The first block-diagonal weight array, as the operations before the region compose it. -/
theorem V_v6_eq : (V m c main_v6 : S128x128.Idx → EReal) = kron32 (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Entry `(32a+k, 32a'+j)` of the first block-diagonal weight array is `δ a a' · W0 k j`. -/
theorem V_v6 (a : Fin 4) (k : Fin 32) (a' : Fin 4) (j : Fin 32) :
    (V m c main_v6 : S128x128.Idx → EReal) (ix2 (lane32 a k) (lane32 a' j))
      = eye a a' * (m ((c : Thread nD τ).loc main_arg1) : S32x32.Idx → EReal) (ix2 k j) := by
  rw [V_v6_eq]
  exact kron32_apply _ a k a' j

/-- The second block-diagonal weight array, as the operations before the region compose it. -/
theorem V_v7_eq : (V m c main_v7 : S128x128.Idx → EReal) = kron32 (m ((c : Thread nD τ).loc main_arg2)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Entry `(32a+k, 32a'+j)` of the second block-diagonal weight array is `δ a a' · W1 k j`. -/
theorem V_v7 (a : Fin 4) (k : Fin 32) (a' : Fin 4) (j : Fin 32) :
    (V m c main_v7 : S128x128.Idx → EReal) (ix2 (lane32 a k) (lane32 a' j))
      = eye a a' * (m ((c : Thread nD τ).loc main_arg2) : S32x32.Idx → EReal) (ix2 k j) := by
  rw [V_v7_eq]
  exact kron32_apply _ a k a' j

/-- The third block-diagonal weight array, as the operations before the region compose it. -/
theorem V_v8_eq : (V m c main_v8 : S128x12.Idx → EReal) = kron3 (m ((c : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Entry `(32a+k, 3a'+j)` of the third block-diagonal weight array is `δ a a' · W2 k j`. -/
theorem V_v8 (a : Fin 4) (k : Fin 32) (a' : Fin 4) (j : Fin 3) :
    (V m c main_v8 : S128x12.Idx → EReal) (ix2 (lane32 a k) (lane3 a' j))
      = eye a a' * (m ((c : Thread nD τ).loc main_arg3) : S32x3.Idx → EReal) (ix2 k j) := by
  rw [V_v8_eq]
  exact kron3_apply _ a k a' j

end Cert.KernelIdeal.HostPrefix

end
-- ==== Proof.TailRead.lean ====
/-
  The host operation after the kernel region: the region's output, an array of 1048576 rows of width 12, is reshaped
  to the result, 4194304 rows of width 3. Row-major positions agree: position 3·(4r + a) + j of the result is position
  12·r + (3a + j) of the region's output, so the result's row 4r + a is block a of the output's row r.
-/
import proofs.«152246_j72816875536992_2_alg».proof.Proof.Gen.KernelIdeal.Frame
import proofs.«152246_j72816875536992_2_alg».proof.Proof.Spec
import Idealize.ShloMosaic.Lib.StableHlo.Run
import Idealize.ShloMosaic.Lib.Pipeline.Value
import Idealize.ShloMosaic.Lib.ValueIdx

noncomputable section

namespace Cert.KernelIdeal.Tail

open Cert.KernelIdeal Cert.KernelIdeal.Gen Cert.MlpSpec Idealize.ShloMosaic Idealize.ShloMosaic.TcCoe
  Idealize.ShloMosaic.ValueIdx Idealize.SL.Sem Idealize.ShloMosaic.StableHlo

/-- After the region and the reshape, the result buffer holds the reshape of what the region left in its output
    array. -/
theorem tail_eq {F : FTy → Type} [FloatOps F] (m : (ℓ : Loc nD τ sig) → Buf (Elt F) ℓ) (c : Dev nD) :
    Pipeline.afterTail₀ cfgs (dats m) 0 (V0 m) [hostOps1] c main_v23
      = shapeCast S4194304x3 ((dats m 0 c).arrAt 7 cfg0.N) shapeCasts_S1048576x12_S4194304x3 := by
  unfold Pipeline.afterTail₀
  show StableHlo.after hostOps1 _ (Proc.devRef .tc main_v23) = _
  after_results
  funext i
  show shapeCast S4194304x3 (Pipeline.withArrays spec0 c (V0 m c) (fun w => (dats m 0 c).arrAt w cfg0.N)
    (Proc.devRef .tc (Pipeline.arrRef spec0 7))) shapeCasts_S1048576x12_S4194304x3 i = _
  rw [Pipeline.withArrays_arr spec0 launch0.win.arr_inj c _ _ 7]

/-- The reshape read at row `4r + a`, lane `j`: the operand at row `r`, lane `3a + j`. -/
theorem unpack_apply {α : Type} (G : S1048576x12.Idx → α) (r : Fin 1048576) (a : Fin 4) (j : Fin 3) :
    shapeCast S4194304x3 G shapeCasts_S1048576x12_S4194304x3 (ix2 (row4 r a) j) = G (ix2 r (lane3 a j)) := by
  refine shapeCast_apply G _ _ _ ?_
  rw [Shape.rowMajor_val_two, Shape.rowMajor_val_two]
  show r.val * 12 + (3 * a.val + j.val) = (4 * r.val + a.val) * 3 + j.val
  omega

/-- Every row of the result is row `4r + a` for some `r` and `a`. -/
theorem row4_surj (n : Fin 4194304) : ∃ (r : Fin 1048576) (a : Fin 4), n = row4 r a :=
  ⟨⟨n.val / 4, by have := n.isLt; omega⟩, ⟨n.val % 4, Nat.mod_lt _ (by decide)⟩,
    Fin.ext (by show n.val = 4 * (n.val / 4) + n.val % 4; omega)⟩

end Cert.KernelIdeal.Tail

end
-- ==== Proof.KernelWhole.lean ====
/-
  The kernel's result as one function of the arguments, and the kernel's run re-posted with it.

  After the region the packed output array holds the packed computation of the region's operand arrays; those
  operands are the host's re-laying of the arguments (four consecutive input rows side by side, the weight matrices
  as block-diagonal matrices of four copies, the biases repeated four times), so entry `(r, 3a + j)` of the packed
  output is the perceptron's output `j` for row `4r + a`; and @main's last line reads the packed output as a
  `[4194304, 3]` array, whose entry `(4r + a, j)` is that entry. Every row is `4r + a` for one `r` and `a`.
-/
import proofs.«152246_j72816875536992_2_alg».proof.Proof.Gen.KernelIdeal.Frame
import proofs.«152246_j72816875536992_2_alg».proof.Proof.KernelArray
import proofs.«152246_j72816875536992_2_alg».proof.Proof.PackedAlgebra
import proofs.«152246_j72816875536992_2_alg».proof.Proof.HostRows
import proofs.«152246_j72816875536992_2_alg».proof.Proof.HostWeights
import proofs.«152246_j72816875536992_2_alg».proof.Proof.TailRead

noncomputable section

namespace Cert.KernelIdeal.Whole

open Cert.KernelIdeal Cert.KernelIdeal.Gen Cert.MlpSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The perceptron of the argument arrays as launched. -/
abbrev spec (c : Dev nD) : S4194304x3.Idx → EReal :=
  mlp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- THE RESULT: what @main's last line leaves in the result buffer is the perceptron of the arguments. -/
theorem result_eq (c : Dev nD) :
    (Pipeline.afterTail₀ cfgs (dats m) 0 (V0 m) [hostOps1] c main_v23 : S4194304x3.Idx → EReal) = spec m c := by
  rw [Tail.tail_eq m c, Array.final m c]
  funext i
  obtain ⟨n, j, rfl⟩ : ∃ (n : Fin 4194304) (j : Fin 3), i = ix2 n j := ⟨i 0, i 1, eq_ix2 i⟩
  obtain ⟨r, a, rfl⟩ := Tail.row4_surj n
  rw [Tail.unpack_apply]
  exact packedRow_eq _ _ _ _ _ _ _ r _ _ _ _ _ _ _ (fun a k => HostPrefix.V_v21 m c r a k) (HostPrefix.V_v6 m c)
    (HostPrefix.V_v7 m c) (HostPrefix.V_v8 m c) (HostPrefix.V_v12 m c) (HostPrefix.V_v16 m c) (HostPrefix.V_v20 m c) a j

/-- THE RUN: every weakly fair execution of @main terminates with the result at the perceptron of the arguments and
    the arguments unchanged. -/
theorem run : θ_run defs (onTc (τ := τ) (main (F := Ideal))) ⟨m, fun _ => 0, ρ⟩ fun r => ∀ c : Dev nD,
      r.2.mem ((c.tc : Thread nD τ).loc main_v23) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.lean ====
/-
  A three-layer perceptron on 4,194,304 rows of width 32 (`max (x·W0 + b0) 0`, `max (·W1 + b1) 0`, `·W2 + b2`,
  three outputs per row), computed by a kernel that packs four consecutive rows into one row of width 128 and
  multiplies by block-diagonal weight matrices carrying four copies of each weight matrix, against the plain
  row-by-row computation.

  On the extended reals the two agree entry by entry. The off-diagonal blocks of the packed weight matrices are
  exact zeros (the 4×4 identity's entries times the weights), `0 · y = 0 = y · 0` for every extended real, and
  sums are commutative and associative, so each 128-term sum of the packed computation is the 32-term sum of the
  row it belongs to; the packed output read as a `[4194304, 3]` array puts entry `(r, 3a + j)` at `(4r + a, j)`.
  No distributivity or cancellation is used, so the precondition (finite inputs) is never opened.

  The three frames are the generated ones (the reference's is its generated run with the result dropped); the
  idealization rewrote nothing, so its conjunct is `True`; the algebraic conjunct sets the kernel's run
  (`Cert.KernelIdeal.Whole.run`) beside the reference's generated run read as the perceptron
  (`Cert.ReferenceIdeal.RefValue.ref_eq`), both results the one function `Cert.MlpSpec.mlp` of arguments that agree.
-/
import proofs.«152246_j72816875536992_2_alg».proof.Defs
import proofs.«152246_j72816875536992_2_alg».proof.Proof.Gen.Kernel
import proofs.«152246_j72816875536992_2_alg».proof.Proof.Gen.Kernel.Skeleton
import proofs.«152246_j72816875536992_2_alg».proof.Proof.Gen.Kernel.Launch
import proofs.«152246_j72816875536992_2_alg».proof.Proof.Gen.Kernel.Points
import proofs.«152246_j72816875536992_2_alg».proof.Proof.Gen.Kernel.Frame
import proofs.«152246_j72816875536992_2_alg».proof.Proof.Gen.KernelIdeal
import proofs.«152246_j72816875536992_2_alg».proof.Proof.Gen.KernelIdeal.Skeleton
import proofs.«152246_j72816875536992_2_alg».proof.Proof.Gen.KernelIdeal.Launch
import proofs.«152246_j72816875536992_2_alg».proof.Proof.Gen.KernelIdeal.Points
import proofs.«152246_j72816875536992_2_alg».proof.Proof.Gen.KernelIdeal.Frame
import proofs.«152246_j72816875536992_2_alg».proof.Proof.Gen.ReferenceIdeal
import proofs.«152246_j72816875536992_2_alg».proof.Proof.Gen.Pre_finite_inputs
import proofs.«152246_j72816875536992_2_alg».proof.Proof.Gen.ReferenceIdeal.Run
import proofs.«152246_j72816875536992_2_alg».proof.Proof.Gen.ReferenceIdeal.Read
import proofs.«152246_j72816875536992_2_alg».proof.Proof.RefIsSpec
import proofs.«152246_j72816875536992_2_alg».proof.Proof.KernelWhole
import Idealize.ShloMosaic.Adequacy
import Idealize.ShloMosaic.Init

noncomputable section

namespace Cert.Proof

open Idealize.ShloMosaic Idealize.SL.Sem

/-- At the extended reals the kernel's result array ends at the perceptron of its arguments (the kernel's run) and
    the reference's at the same function of its own (its generated run, read as the perceptron); the arguments agree. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v13_eq, Cert.ReferenceIdeal.RefValue.ref_eq, e0, e1, e2, e3, e4, e5, e6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
